-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : FVec F S800000x64 .f32) (main_arg3 : FVec F S1x64 .f32) (main_arg4 : IVec S50000 32) (main_arg5 : FVec F S128x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S8000x64 : Shape := ⟨2, ![8000, 64]⟩
abbrev S50000x1 : Shape := ⟨2, ![50000, 1]⟩
abbrev S5000x64 : Shape := ⟨2, ![5000, 64]⟩

abbrev nBuf : Space → Nat
  | .hbm => 52
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S1x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S1x64, .f32⟩
  | .hbm, ⟨51, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S8000x64, .f32⟩
  | .local _ .vmem, ⟨10, _⟩ => ⟨S8000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x64_S64x64_0_0 : S128x64.Slices ![0, 0] S64x64
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x128 : Shape := ⟨2, ![50000, 128]⟩

abbrev nBuf : Space → Nat
  | .hbm => 66
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x128, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S_, .f32⟩
  | .hbm, ⟨43, _⟩ => ⟨S800000, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S50000x128, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel program's run, with its result named.

  The program is four segments: host operations, the edge kernel's region, host operations, the node kernel's
  region. After the last segment every buffer of a core holds the contents the run's fold through the segments
  gives it; the result buffer is the node region's output array, which ends at what that region's write-backs
  leave in it, and no segment writes an argument. So every weakly fair execution terminates with the result at the
  node region's final array and the thirteen arguments as launched.
-/
import proofs.«172014_j24773371363899_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the node region's output array: after the last segment it holds what that region's
    write-backs leave. -/
theorem result_at_exit (c : Dev nD) :
    W4 m ρ c (Proc.devRef .tc main_v32) = (dat1 (V3 m ρ) c).arrAt 7 cfg1.N :=
  W4_arr m ρ c 7

set_option backward.isDefEq.respectTransparency.types false in
/-- Every weakly fair execution of the kernel program terminates, nothing faulting, with the result buffer at the
    node region's final array and every argument as launched. -/
theorem run_result : θ_run defs (onTc (τ := τ) (main (F := F))) ⟨m, fun _ => 0, ρ⟩ (fun r => ∀ c : Dev nD,
      r.2.mem ((c.tc : Thread nD τ).loc main_v32) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v32 (by decide))).trans (result_at_exit m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelRun

end
-- ==== Proof.RowMlp.lean ====
/-
  A two-layer perceptron applied to one row, on the extended reals.

  A row is a pair of 64-vectors `(a, b)`: the two halves of a 128-wide input. The first layer sends it to 64 hidden
  units, `h k = max (Σ_j a j · wt j k + Σ_j b j · wb j k + b1 k) z`, where `wt` and `wb` are the upper and the lower
  64 rows of the layer's 128 × 64 weight and `z` is the threshold of the rectifier; the second layer sends the hidden
  units to 64 outputs, `o q = Σ_k h k · w2 k q + b2 q`.

  One program contracts the joined row `a ‖ b` with the whole weight over 128 terms; the other contracts `a` with
  the upper half and `b` with the lower half over 64 terms each and adds the two. `sum_halves` is the law between
  them: a sum over 128 = 64 + 64 indices is the sum over the first 64 plus the sum over the last 64. It only regroups
  a finite sum in a commutative monoid, so it holds on the extended reals whatever the terms are: no entry has to be
  finite.
-/
import Idealize.ShloMosaic.Lib.ValueIdx
import Idealize.ShloMosaic.PureOps.Ideal.Laws

noncomputable section

namespace Cert.RowMlp

/-- Hidden unit `k` of the row `(a, b)`: the rectified affine image of the two halves. -/
def hidden (a b : Fin 64 → EReal) (wt wb : Fin 64 → Fin 64 → EReal) (b1 : Fin 64 → EReal) (z : EReal) (k : Fin 64) : EReal :=
  max ((∑ j : Fin 64, a j * wt j k) + (∑ j : Fin 64, b j * wb j k) + b1 k) z

/-- Output `q` of the row `(a, b)`: the affine image of its hidden units. -/
def out (a b : Fin 64 → EReal) (wt wb : Fin 64 → Fin 64 → EReal) (b1 : Fin 64 → EReal) (z : EReal)
    (w2 : Fin 64 → Fin 64 → EReal) (b2 : Fin 64 → EReal) (q : Fin 64) : EReal :=
  (∑ k : Fin 64, hidden a b wt wb b1 z k * w2 k q) + b2 q

/-- A sum over 128 indices is the sum over the first 64 plus the sum over the last 64. -/
theorem sum_halves (f : Fin 128 → EReal) :
    ∑ k : Fin 128, f k
      = (∑ j : Fin 64, f ⟨j.val, Nat.lt_of_lt_of_le j.isLt (by decide)⟩)
        + ∑ j : Fin 64, f ⟨64 + j.val, by have := j.isLt; omega⟩ :=
  Fin.sum_univ_add (a := 64) (b := 64) f

open Idealize.ShloMosaic Idealize.ShloMosaic.ValueIdx in
/-- The perceptron applied to every row of two `R × 64` arrays: entry `(r, q)` of the result is output `q` of row `r`.
    The weights are 64 × 64 arrays and the biases 1 × 64 rows. -/
def rows {R : Nat} (A B : (⟨2, ![R, 64]⟩ : Shape).Idx → EReal) (Wt Wb : (⟨2, ![64, 64]⟩ : Shape).Idx → EReal)
    (B1 : (⟨2, ![1, 64]⟩ : Shape).Idx → EReal) (z : EReal) (W2 : (⟨2, ![64, 64]⟩ : Shape).Idx → EReal)
    (B2 : (⟨2, ![1, 64]⟩ : Shape).Idx → EReal) : (⟨2, ![R, 64]⟩ : Shape).Idx → EReal :=
  fun i => out (fun j => A (ix2 (i 0) j)) (fun j => B (ix2 (i 0) j)) (fun j k => Wt (ix2 j k)) (fun j k => Wb (ix2 j k))
    (fun k => B1 (ix2 (0 : Fin 1) k)) z (fun k q => W2 (ix2 k q)) (fun q => B2 (ix2 (0 : Fin 1) q)) (i 1)

end Cert.RowMlp

end
-- ==== Proof.EdgeBody.lean ====
/-
  The body of the edge kernel at one grid point, read at an index, on the extended reals.

  The body loads a block of 8000 rows of each of its two 64-wide inputs, the two 64 × 64 halves of the first layer's
  weight, the first layer's bias as a 1 × 64 row, the second layer's 64 × 64 weight and its bias row. It forms the
  two products into zero accumulators, adds them, adds the bias row to every row, takes the maximum with zero,
  multiplies by the second weight into a zero accumulator and adds the second bias row. The changes of float format
  in between are the identity on the extended reals, and a product into a zero accumulator is the plain sum of
  products over the contracted index. So entry `(p, q)` of the stored block is the perceptron's output `q` of row
  `p` of the two input blocks (`RowMlp.out`).
-/
import proofs.«172014_j24773371363899_2_alg».proof.Proof.Gen.KernelIdeal.Skeleton
import proofs.«172014_j24773371363899_2_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

namespace Cert.EdgeMlp

open Cert.KernelIdeal Cert.KernelIdeal.Gen Idealize.ShloMosaic Idealize.ShloMosaic.TcCoe Idealize.ShloMosaic.ValueIdx

/-! ## The body's matrix product read at an index -/

theorem lhs_row (i : S8000x64.Idx) (c : dot_S8000x64_S64x64_S8000x64_1_0_0_1_n_n.contr.Idx) : (dot_S8000x64_S64x64_S8000x64_1_0_0_1_n_n.lhsIdx i c 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_contr (i : S8000x64.Idx) (c : dot_S8000x64_S64x64_S8000x64_1_0_0_1_n_n.contr.Idx) : (dot_S8000x64_S64x64_S8000x64_1_0_0_1_n_n.lhsIdx i c 1).val = (c ⟨0, by decide⟩).val :=
  dot_S8000x64_S64x64_S8000x64_1_0_0_1_n_n.lhsIdx_val_of_single rfl i c
theorem rhs_contr (i : S8000x64.Idx) (c : dot_S8000x64_S64x64_S8000x64_1_0_0_1_n_n.contr.Idx) : (dot_S8000x64_S64x64_S8000x64_1_0_0_1_n_n.rhsIdx i c 0).val = (c ⟨0, by decide⟩).val :=
  dot_S8000x64_S64x64_S8000x64_1_0_0_1_n_n.rhsIdx_val_of_single rfl i c
theorem rhs_col (i : S8000x64.Idx) (c : dot_S8000x64_S64x64_S8000x64_1_0_0_1_n_n.contr.Idx) : (dot_S8000x64_S64x64_S8000x64_1_0_0_1_n_n.rhsIdx i c 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A product of a 8000 × 64 block with a 64 × 64 matrix into the zero accumulator, at `(p, q)`: row `p` of the block
    against column `q` of the matrix. -/
theorem mm_apply {φ₁ φ₂ : FTy} (lhs : FVec Ideal S8000x64 φ₁) (rhs : FVec Ideal S64x64 φ₂) (p : Fin 8000) (q : Fin 64) :
    matmul dot_S8000x64_S64x64_S8000x64_1_0_0_1_n_n none lhs rhs (constant (F := Ideal) S8000x64 .f32 0x00000000#32) (ix2 p q)
      = ∑ k : Fin 64, lhs (ix2 p k) * rhs (ix2 k q) := by
  show FloatOps.matmul dot_S8000x64_S64x64_S8000x64_1_0_0_1_n_n none lhs rhs (constant (F := Ideal) S8000x64 .f32 0x00000000#32) (ix2 p q) = _
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_row _ _
    | ⟨1, _⟩ => exact (lhs_contr _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The stored block at an index -/

/-- Entry `(p, q)` of the block the body stores is output `q` of the perceptron on row `p` of the two input blocks. -/
theorem pay_apply (x0 x1 : Vec Ideal S8000x64 .f32) (x2 x3 : Vec Ideal S64x64 .f32) (x4 : Vec Ideal S1x64 .f32)
    (x5 : Vec Ideal S64x64 .f32) (x6 : Vec Ideal S1x64 .f32) (p : Fin 8000) (q : Fin 64) :
    k0_pay1 x0 x1 x2 x3 x4 x5 x6 (ix2 p q)
      = RowMlp.out (fun j => x0 (ix2 p j)) (fun j => x1 (ix2 p j)) (fun j k => x2 (ix2 j k)) (fun j k => x3 (ix2 j k))
          (fun k => x4 (ix2 (0 : Fin 1) k)) (FloatOps.ofBits (F := Ideal) .f32 0x00000000#32)
          (fun k q => x5 (ix2 k q)) (fun q => x6 (ix2 (0 : Fin 1) q)) q := by
  unfold k0_pay1
  simp only [shapeCast_self]
  rw [addf_apply, mm_apply, broadcastTo_1b_ab_apply]
  unfold RowMlp.out RowMlp.hidden
  refine congrArg (· + x6 (ix2 (0 : Fin 1) q)) (Finset.sum_congr rfl fun k _ => ?_)
  rw [truncf_apply, truncf_apply, maximumf_apply, broadcast_apply, addf_apply, addf_apply, mm_apply, mm_apply,
    broadcastTo_1b_ab_apply]
  simp only [truncf_apply]

end Cert.EdgeMlp

end
-- ==== Proof.EdgeBlocks.lean ====
/-
  The edge region's output array after the region, as one function of the arrays the region finds.

  The grid has 100 points. At point `t` the two row inputs and the output are staged as rows `8000·t … 8000·t + 7999`
  of their arrays, and the five weight and bias operands as their whole arrays. The body's stored block is the
  perceptron applied to the rows of the two input blocks, so what point `t` writes back is block `t` of the
  perceptron applied to every row of the two input arrays. The 100 blocks of 8000 rows fill the 800000 rows, each row in
  block `r / 8000`: the array ends at that one function.
-/
import proofs.«172014_j24773371363899_2_alg».proof.Proof.Gen.KernelIdeal.Frame
import proofs.«172014_j24773371363899_2_alg».proof.Proof.EdgeBody
import Idealize.ShloMosaic.Lib.Pipeline.Value

set_option maxRecDepth 16384

noncomputable section

namespace Cert.EdgeMlp

open Cert.KernelIdeal Cert.KernelIdeal.Gen Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The threshold of the rectifier: the zero word, read on the extended reals. -/
abbrev zeroWord : EReal := FloatOps.ofBits (F := Ideal) .f32 0x00000000#32

/-- The windows' block indices over the grid: the row inputs and the output at block `(t, 0)`, the rest at `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- The region's output array as one function of the arrays it finds: the perceptron on every row. -/
def result (c : Dev nD) : Buf (Elt Ideal) ((c : Thread nD τ).loc main_v15) :=
  RowMlp.rows (V c main_v10) (V c main_arg2) (V c main_v11) (V c main_v12) (V c main_v13) zeroWord (V c main_arg7) (V c main_v14)

/-- One entry of a stored block: when the two input blocks' row `j 0` is row `i 0` of two arrays and the other
    operands are whole arrays, entry `j` of the block is entry `i` of the perceptron on the arrays' rows. -/
theorem point_eq (x0 x1 : Vec Ideal S8000x64 .f32) (x2 x3 : Vec Ideal S64x64 .f32) (x4 : Vec Ideal S1x64 .f32)
    (x5 : Vec Ideal S64x64 .f32) (x6 : Vec Ideal S1x64 .f32)
    (A B : S800000x64.Idx → EReal) (Wt Wb : S64x64.Idx → EReal) (B1 : S1x64.Idx → EReal) (W2 : S64x64.Idx → EReal) (B2 : S1x64.Idx → EReal)
    (j : S8000x64.Idx) (i : S800000x64.Idx)
    (hA : ∀ k : Fin 64, x0 (ix2 (j 0) k) = A (ix2 (i 0) k)) (hB : ∀ k : Fin 64, x1 (ix2 (j 0) k) = B (ix2 (i 0) k))
    (h2 : x2 = Wt) (h3 : x3 = Wb) (h4 : x4 = B1) (h5 : x5 = W2) (h6 : x6 = B2) (hq : (i 1).val = (j 1).val) :
    k0_pay1 x0 x1 x2 x3 x4 x5 x6 j = RowMlp.rows A B Wt Wb B1 zeroWord W2 B2 i := by
  subst h2 h3 h4 h5 h6
  obtain ⟨p, q, rfl⟩ : ∃ (p : Fin 8000) (q : Fin 64), j = ix2 p q := ⟨j 0, j 1, eq_ix2 j⟩
  have hq' : (i 1 : Fin 64) = q := Fin.ext hq
  have hA' : (fun k : Fin 64 => x0 (ix2 p k)) = fun k : Fin 64 => A (ix2 (i 0) k) := funext hA
  have hB' : (fun k : Fin 64 => x1 (ix2 p k)) = fun k : Fin 64 => B (ix2 (i 0) k) := funext hB
  rw [pay_apply, hA', hB']
  unfold RowMlp.rows
  rw [hq']

/-- Row `p` of window 0's block at point `t` is the row of its array that row `p` of the output's block at `t` lands on. -/
theorem iblk_rowA (c : Dev nD) (t : Fin cfg0.N) (j : S8000x64.Idx) (k : Fin 64) :
    (iblk0 V c 0 t : Vec Ideal S8000x64 .f32) (ix2 (j 0) k)
      = (V c main_v10 : S800000x64.Idx → EReal) (ix2 ((((cfg0.win 7).blk t).view.emb j : S800000x64.Idx) 0) k) := by
  obtain ⟨e00, e01, e10, e11, e20, e21, e30, e31, e40, e41, e50, e51, e60, e61, e70, e71⟩ := idx_facts t
  show V c main_v10 (((cfg0.win 0).blk t).view.emb (ix2 (j 0) k)) = _
  refine congrArg _ (funext fun a => Fin.ext ?_)
  match a with
  | ⟨0, _⟩ => show win0_0.index t (0 : Fin 2) * 8000 + 1 * (j 0).val = win0_7.index t (0 : Fin 2) * 8000 + 1 * (j 0).val; omega
  | ⟨1, _⟩ => show win0_0.index t (1 : Fin 2) * 64 + 1 * k.val = k.val; omega

/-- Row `p` of window 1's block at point `t` is the row of its array that row `p` of the output's block at `t` lands on. -/
theorem iblk_rowB (c : Dev nD) (t : Fin cfg0.N) (j : S8000x64.Idx) (k : Fin 64) :
    (iblk0 V c 1 t : Vec Ideal S8000x64 .f32) (ix2 (j 0) k)
      = (V c main_arg2 : S800000x64.Idx → EReal) (ix2 ((((cfg0.win 7).blk t).view.emb j : S800000x64.Idx) 0) k) := by
  obtain ⟨e00, e01, e10, e11, e20, e21, e30, e31, e40, e41, e50, e51, e60, e61, e70, e71⟩ := idx_facts t
  show V c main_arg2 (((cfg0.win 1).blk t).view.emb (ix2 (j 0) k)) = _
  refine congrArg _ (funext fun a => Fin.ext ?_)
  match a with
  | ⟨0, _⟩ => show win0_1.index t (0 : Fin 2) * 8000 + 1 * (j 0).val = win0_7.index t (0 : Fin 2) * 8000 + 1 * (j 0).val; omega
  | ⟨1, _⟩ => show win0_1.index t (1 : Fin 2) * 64 + 1 * k.val = k.val; omega

/-- Window 2's block is its whole array at every point. -/
theorem iblk_2 (c : Dev nD) (t : Fin cfg0.N) : (iblk0 V c 2 t : Vec Ideal S64x64 .f32) = V c main_v11 := by
  obtain ⟨e00, e01, e10, e11, e20, e21, e30, e31, e40, e41, e50, e51, e60, e61, e70, e71⟩ := idx_facts t
  funext y
  show V c main_v11 (((cfg0.win 2).blk t).view.emb y) = V c main_v11 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block is its whole array at every point. -/
theorem iblk_3 (c : Dev nD) (t : Fin cfg0.N) : (iblk0 V c 3 t : Vec Ideal S64x64 .f32) = V c main_v12 := by
  obtain ⟨e00, e01, e10, e11, e20, e21, e30, e31, e40, e41, e50, e51, e60, e61, e70, e71⟩ := idx_facts t
  funext y
  show V c main_v12 (((cfg0.win 3).blk t).view.emb y) = V c main_v12 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block is its whole array at every point. -/
theorem iblk_4 (c : Dev nD) (t : Fin cfg0.N) : (iblk0 V c 4 t : Vec Ideal S1x64 .f32) = V c main_v13 := by
  obtain ⟨e00, e01, e10, e11, e20, e21, e30, e31, e40, e41, e50, e51, e60, e61, e70, e71⟩ := idx_facts t
  funext y
  show V c main_v13 (((cfg0.win 4).blk t).view.emb y) = V c main_v13 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array at every point. -/
theorem iblk_5 (c : Dev nD) (t : Fin cfg0.N) : (iblk0 V c 5 t : Vec Ideal S64x64 .f32) = V c main_arg7 := by
  obtain ⟨e00, e01, e10, e11, e20, e21, e30, e31, e40, e41, e50, e51, e60, e61, e70, e71⟩ := idx_facts t
  funext y
  show V c main_arg7 (((cfg0.win 5).blk t).view.emb y) = V c main_arg7 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6's block is its whole array at every point. -/
theorem iblk_6 (c : Dev nD) (t : Fin cfg0.N) : (iblk0 V c 6 t : Vec Ideal S1x64 .f32) = V c main_v14 := by
  obtain ⟨e00, e01, e10, e11, e20, e21, e30, e31, e40, e41, e50, e51, e60, e61, e70, e71⟩ := idx_facts t
  funext y
  show V c main_v14 (((cfg0.win 6).blk t).view.emb y) = V c main_v14 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What point `t` writes back is block `t` of `result`. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz]
  simp only [View.ld_unit_zero (S := S8000x64) hz, View.ld_unit_zero (S := S64x64) hz, View.ld_unit_zero (S := S1x64) hz]
  obtain ⟨e00, e01, e10, e11, e20, e21, e30, e31, e40, e41, e50, e51, e60, e61, e70, e71⟩ := idx_facts t
  funext j
  show k0_pay1 (iblk0 V c 0 t) (iblk0 V c 1 t) (iblk0 V c 2 t) (iblk0 V c 3 t) (iblk0 V c 4 t) (iblk0 V c 5 t) (iblk0 V c 6 t) j
    = result V c (((cfg0.win 7).blk t).view.emb j)
  unfold result
  refine point_eq _ _ _ _ _ _ _ _ _ _ _ _ _ _ j _ (iblk_rowA V c t j) (iblk_rowB V c t j)
    (iblk_2 V c t) (iblk_3 V c t) (iblk_4 V c t) (iblk_5 V c t) (iblk_6 V c t) ?_
  show win0_7.index t (1 : Fin 2) * 64 + 1 * (j 1).val = (j 1).val
  omega

/-- An index of the array is in point `t`'s block iff each coordinate is in the block's range on its axis. -/
theorem mem_blk (t : Fin cfg0.N) (i : S800000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v15).slice (win0_7.rect t)).set ↔ _
  rw [View.set_slice_whole, Rect.mem_set_unit]
  exact Iff.rfl

/-- Every index is in some point's block: row `r` in the block of point `r / 8000`. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 100 := N_0
  obtain ⟨t, ht⟩ : ∃ t : Fin cfg0.N, t.val = (i 0).val / 8000 := ⟨⟨(i 0).val / 8000, by rw [hN]; omega⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- The output array after the region is `result`: the perceptron on every row of the arrays the region finds. -/
theorem final (c : Dev nD) : (dat0 V c).arrAt 7 cfg0.N = result V c :=
  (dat0 V c).arrAt_eq_of_cover 7 (result V c) (fun t _ => flushed_eq V c t) cover

end Cert.EdgeMlp

end
-- ==== Proof.NodeBody.lean ====
/-
  The body of the node kernel at one grid point, read at an index, on the extended reals.

  The body loads a block of 5000 rows of each of its two 64-wide inputs, the two 64 × 64 halves of the first layer's
  weight, the first layer's bias as a 1 × 64 row, the second layer's 64 × 64 weight and its bias row. It forms the
  two products into zero accumulators, adds them, adds the bias row to every row, takes the maximum with zero,
  multiplies by the second weight into a zero accumulator and adds the second bias row. The changes of float format
  in between are the identity on the extended reals, and a product into a zero accumulator is the plain sum of
  products over the contracted index. So entry `(p, q)` of the stored block is the perceptron's output `q` of row
  `p` of the two input blocks (`RowMlp.out`).
-/
import proofs.«172014_j24773371363899_2_alg».proof.Proof.Gen.KernelIdeal.Skeleton
import proofs.«172014_j24773371363899_2_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

namespace Cert.NodeMlp

open Cert.KernelIdeal Cert.KernelIdeal.Gen Idealize.ShloMosaic Idealize.ShloMosaic.TcCoe Idealize.ShloMosaic.ValueIdx

/-! ## The body's matrix product read at an index -/

theorem lhs_row (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (i : S5000x64.Idx) (c : dot_S5000x64_S64x64_S5000x64_1_0_0_1_n_n.contr.Idx) : (dot_S5000x64_S64x64_S5000x64_1_0_0_1_n_n.lhsIdx i c 1).val = (c ⟨0, by decide⟩).val :=
  dot_S5000x64_S64x64_S5000x64_1_0_0_1_n_n.lhsIdx_val_of_single rfl i c
theorem rhs_contr (i : S5000x64.Idx) (c : dot_S5000x64_S64x64_S5000x64_1_0_0_1_n_n.contr.Idx) : (dot_S5000x64_S64x64_S5000x64_1_0_0_1_n_n.rhsIdx i c 0).val = (c ⟨0, by decide⟩).val :=
  dot_S5000x64_S64x64_S5000x64_1_0_0_1_n_n.rhsIdx_val_of_single rfl i c
theorem rhs_col (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000 × 64 block with a 64 × 64 matrix into the zero accumulator, at `(p, q)`: row `p` of the block
    against column `q` of the matrix. -/
theorem mm_apply {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  show FloatOps.matmul dot_S5000x64_S64x64_S5000x64_1_0_0_1_n_n none lhs rhs (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The stored block at an index -/

/-- Entry `(p, q)` of the block the body stores is output `q` of the perceptron on row `p` of the two input blocks. -/
theorem pay_apply (x0 x1 : Vec Ideal S5000x64 .f32) (x2 x3 : Vec Ideal S64x64 .f32) (x4 : Vec Ideal S1x64 .f32)
    (x5 : Vec Ideal S64x64 .f32) (x6 : Vec Ideal S1x64 .f32) (p : Fin 5000) (q : Fin 64) :
    k1_pay1 x0 x1 x2 x3 x4 x5 x6 (ix2 p q)
      = RowMlp.out (fun j => x0 (ix2 p j)) (fun j => x1 (ix2 p j)) (fun j k => x2 (ix2 j k)) (fun j k => x3 (ix2 j k))
          (fun k => x4 (ix2 (0 : Fin 1) k)) (FloatOps.ofBits (F := Ideal) .f32 0x00000000#32)
          (fun k q => x5 (ix2 k q)) (fun q => x6 (ix2 (0 : Fin 1) q)) q := by
  unfold k1_pay1
  simp only [shapeCast_self]
  rw [addf_apply, mm_apply, broadcastTo_1b_ab_apply]
  unfold RowMlp.out RowMlp.hidden
  refine congrArg (· + x6 (ix2 (0 : Fin 1) q)) (Finset.sum_congr rfl fun k _ => ?_)
  rw [truncf_apply, truncf_apply, maximumf_apply, broadcast_apply, addf_apply, addf_apply, mm_apply, mm_apply,
    broadcastTo_1b_ab_apply]
  simp only [truncf_apply]

end Cert.NodeMlp

end
-- ==== Proof.NodeBlocks.lean ====
/-
  The node region's output array after the region, as one function of the arrays the region finds.

  The grid has 10 points. At point `t` the two row inputs and the output are staged as rows `5000·t … 5000·t + 4999`
  of their arrays, and the five weight and bias operands as their whole arrays. The body's stored block is the
  perceptron applied to the rows of the two input blocks, so what point `t` writes back is block `t` of the
  perceptron applied to every row of the two input arrays. The 10 blocks of 5000 rows fill the 50000 rows, each row in
  block `r / 5000`: the array ends at that one function.
-/
import proofs.«172014_j24773371363899_2_alg».proof.Proof.Gen.KernelIdeal.Frame
import proofs.«172014_j24773371363899_2_alg».proof.Proof.NodeBody
import Idealize.ShloMosaic.Lib.Pipeline.Value

set_option maxRecDepth 16384

noncomputable section

namespace Cert.NodeMlp

open Cert.KernelIdeal Cert.KernelIdeal.Gen Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The threshold of the rectifier: the zero word, read on the extended reals. -/
abbrev zeroWord : EReal := FloatOps.ofBits (F := Ideal) .f32 0x00000000#32

/-- The windows' block indices over the grid: the row inputs and the output at block `(t, 0)`, the rest at `(0, 0)`. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- The region's output array as one function of the arrays it finds: the perceptron on every row. -/
def result (c : Dev nD) : Buf (Elt Ideal) ((c : Thread nD τ).loc main_v32) :=
  RowMlp.rows (V c main_arg0) (V c main_v27) (V c main_v28) (V c main_v29) (V c main_v30) zeroWord (V c main_arg11) (V c main_v31)

/-- One entry of a stored block: when the two input blocks' row `j 0` is row `i 0` of two arrays and the other
    operands are whole arrays, entry `j` of the block is entry `i` of the perceptron on the arrays' rows. -/
theorem point_eq (x0 x1 : Vec Ideal S5000x64 .f32) (x2 x3 : Vec Ideal S64x64 .f32) (x4 : Vec Ideal S1x64 .f32)
    (x5 : Vec Ideal S64x64 .f32) (x6 : Vec Ideal S1x64 .f32)
    (A B : S50000x64.Idx → EReal) (Wt Wb : S64x64.Idx → EReal) (B1 : S1x64.Idx → EReal) (W2 : S64x64.Idx → EReal) (B2 : S1x64.Idx → EReal)
    (j : S5000x64.Idx) (i : S50000x64.Idx)
    (hA : ∀ k : Fin 64, x0 (ix2 (j 0) k) = A (ix2 (i 0) k)) (hB : ∀ k : Fin 64, x1 (ix2 (j 0) k) = B (ix2 (i 0) k))
    (h2 : x2 = Wt) (h3 : x3 = Wb) (h4 : x4 = B1) (h5 : x5 = W2) (h6 : x6 = B2) (hq : (i 1).val = (j 1).val) :
    k1_pay1 x0 x1 x2 x3 x4 x5 x6 j = RowMlp.rows A B Wt Wb B1 zeroWord W2 B2 i := by
  subst h2 h3 h4 h5 h6
  obtain ⟨p, q, rfl⟩ : ∃ (p : Fin 5000) (q : Fin 64), j = ix2 p q := ⟨j 0, j 1, eq_ix2 j⟩
  have hq' : (i 1 : Fin 64) = q := Fin.ext hq
  have hA' : (fun k : Fin 64 => x0 (ix2 p k)) = fun k : Fin 64 => A (ix2 (i 0) k) := funext hA
  have hB' : (fun k : Fin 64 => x1 (ix2 p k)) = fun k : Fin 64 => B (ix2 (i 0) k) := funext hB
  rw [pay_apply, hA', hB']
  unfold RowMlp.rows
  rw [hq']

/-- Row `p` of window 0's block at point `t` is the row of its array that row `p` of the output's block at `t` lands on. -/
theorem iblk_rowA (c : Dev nD) (t : Fin cfg1.N) (j : S5000x64.Idx) (k : Fin 64) :
    (iblk1 V c 0 t : Vec Ideal S5000x64 .f32) (ix2 (j 0) k)
      = (V c main_arg0 : S50000x64.Idx → EReal) (ix2 ((((cfg1.win 7).blk t).view.emb j : S50000x64.Idx) 0) k) := by
  obtain ⟨e00, e01, e10, e11, e20, e21, e30, e31, e40, e41, e50, e51, e60, e61, e70, e71⟩ := idx_facts t
  show V c main_arg0 (((cfg1.win 0).blk t).view.emb (ix2 (j 0) k)) = _
  refine congrArg _ (funext fun a => Fin.ext ?_)
  match a with
  | ⟨0, _⟩ => show win1_0.index t (0 : Fin 2) * 5000 + 1 * (j 0).val = win1_7.index t (0 : Fin 2) * 5000 + 1 * (j 0).val; omega
  | ⟨1, _⟩ => show win1_0.index t (1 : Fin 2) * 64 + 1 * k.val = k.val; omega

/-- Row `p` of window 1's block at point `t` is the row of its array that row `p` of the output's block at `t` lands on. -/
theorem iblk_rowB (c : Dev nD) (t : Fin cfg1.N) (j : S5000x64.Idx) (k : Fin 64) :
    (iblk1 V c 1 t : Vec Ideal S5000x64 .f32) (ix2 (j 0) k)
      = (V c main_v27 : S50000x64.Idx → EReal) (ix2 ((((cfg1.win 7).blk t).view.emb j : S50000x64.Idx) 0) k) := by
  obtain ⟨e00, e01, e10, e11, e20, e21, e30, e31, e40, e41, e50, e51, e60, e61, e70, e71⟩ := idx_facts t
  show V c main_v27 (((cfg1.win 1).blk t).view.emb (ix2 (j 0) k)) = _
  refine congrArg _ (funext fun a => Fin.ext ?_)
  match a with
  | ⟨0, _⟩ => show win1_1.index t (0 : Fin 2) * 5000 + 1 * (j 0).val = win1_7.index t (0 : Fin 2) * 5000 + 1 * (j 0).val; omega
  | ⟨1, _⟩ => show win1_1.index t (1 : Fin 2) * 64 + 1 * k.val = k.val; omega

/-- Window 2's block is its whole array at every point. -/
theorem iblk_2 (c : Dev nD) (t : Fin cfg1.N) : (iblk1 V c 2 t : Vec Ideal S64x64 .f32) = V c main_v28 := by
  obtain ⟨e00, e01, e10, e11, e20, e21, e30, e31, e40, e41, e50, e51, e60, e61, e70, e71⟩ := idx_facts t
  funext y
  show V c main_v28 (((cfg1.win 2).blk t).view.emb y) = V c main_v28 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block is its whole array at every point. -/
theorem iblk_3 (c : Dev nD) (t : Fin cfg1.N) : (iblk1 V c 3 t : Vec Ideal S64x64 .f32) = V c main_v29 := by
  obtain ⟨e00, e01, e10, e11, e20, e21, e30, e31, e40, e41, e50, e51, e60, e61, e70, e71⟩ := idx_facts t
  funext y
  show V c main_v29 (((cfg1.win 3).blk t).view.emb y) = V c main_v29 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block is its whole array at every point. -/
theorem iblk_4 (c : Dev nD) (t : Fin cfg1.N) : (iblk1 V c 4 t : Vec Ideal S1x64 .f32) = V c main_v30 := by
  obtain ⟨e00, e01, e10, e11, e20, e21, e30, e31, e40, e41, e50, e51, e60, e61, e70, e71⟩ := idx_facts t
  funext y
  show V c main_v30 (((cfg1.win 4).blk t).view.emb y) = V c main_v30 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5's block is its whole array at every point. -/
theorem iblk_5 (c : Dev nD) (t : Fin cfg1.N) : (iblk1 V c 5 t : Vec Ideal S64x64 .f32) = V c main_arg11 := by
  obtain ⟨e00, e01, e10, e11, e20, e21, e30, e31, e40, e41, e50, e51, e60, e61, e70, e71⟩ := idx_facts t
  funext y
  show V c main_arg11 (((cfg1.win 5).blk t).view.emb y) = V c main_arg11 y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block is its whole array at every point. -/
theorem iblk_6 (c : Dev nD) (t : Fin cfg1.N) : (iblk1 V c 6 t : Vec Ideal S1x64 .f32) = V c main_v31 := by
  obtain ⟨e00, e01, e10, e11, e20, e21, e30, e31, e40, e41, e50, e51, e60, e61, e70, e71⟩ := idx_facts t
  funext y
  show V c main_v31 (((cfg1.win 6).blk t).view.emb y) = V c main_v31 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What point `t` writes back is block `t` of `result`. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61, e70, e71⟩ := idx_facts t
  funext j
  show k1_pay1 (iblk1 V c 0 t) (iblk1 V c 1 t) (iblk1 V c 2 t) (iblk1 V c 3 t) (iblk1 V c 4 t) (iblk1 V c 5 t) (iblk1 V c 6 t) j
    = result V c (((cfg1.win 7).blk t).view.emb j)
  unfold result
  refine point_eq _ _ _ _ _ _ _ _ _ _ _ _ _ _ j _ (iblk_rowA V c t j) (iblk_rowB V c t j)
    (iblk_2 V c t) (iblk_3 V c t) (iblk_4 V c t) (iblk_5 V c t) (iblk_6 V c t) ?_
  show win1_7.index t (1 : Fin 2) * 64 + 1 * (j 1).val = (j 1).val
  omega

/-- An index of the array is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v32).slice (win1_7.rect t)).set ↔ _
  rw [View.set_slice_whole, Rect.mem_set_unit]
  exact Iff.rfl

/-- Every index is in some point's block: row `r` in the block of point `r / 5000`. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The output array after the region is `result`: the perceptron on every row of the arrays the region finds. -/
theorem final (c : Dev nD) : (dat1 V c).arrAt 7 cfg1.N = result V c :=
  (dat1 V c).arrAt_eq_of_cover 7 (result V c) (fun t _ => flushed_eq V c t) cover

end Cert.NodeMlp

end
-- ==== Proof.Spec.lean ====
/-
  The result of both programs as one function of the arguments.

  With `row = edge_index[0]`, `col = edge_index[1]`:
    * every edge `e` gets the perceptron's output on the row `(x[row e], edge_attr e)` (first weight `w1a`, its upper
      64 rows meeting `x[row e]` and its lower 64 rows meeting `edge_attr e`; bias `b1a`; second layer `w1b`, `b1b`);
    * every node `n` gets the mean of the outputs of the edges with `col e = n`: their sum divided by
      `max (their number) 1` (`meanByCol`: a scatter-add of the edge rows into zeros, a scatter-add of ones into zeros,
      a maximum with one, a division);
    * every node `n` gets the perceptron's output on the row `(x n, mean n)` (`w2a`, `b2a`, `w2b`, `b2b`).
  The gather `x[row]` and the scatter-mean are the same host operations in both programs and are carried as opaque
  functions: nothing here reads them at an index.
-/
import proofs.«172014_j24773371363899_2_alg».proof.Proof.Gen.ReferenceIdeal.Read
import proofs.«172014_j24773371363899_2_alg».proof.Proof.RowMlp

set_option maxRecDepth 16384

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

/-- The threshold of the rectifier: the zero word, read on the extended reals. -/
abbrev zeroWord : EReal := FloatOps.ofBits (F := Ideal) .f32 0x00000000#32

/-- The upper 64 rows of a 128 × 64 weight. -/
def halfTop (h : S128x64.Slices ![0, 0] S64x64) (w : (⟨S128x64, .f32⟩ : BufTy).Contents (Elt Ideal)) :
    (⟨S64x64, .f32⟩ : BufTy).Contents (Elt Ideal) :=
  extractStridedSlice S64x64 ![0, 0] w h

/-- The lower 64 rows of a 128 × 64 weight. -/
def halfBot (h : S128x64.Slices ![64, 0] S64x64) (w : (⟨S128x64, .f32⟩ : BufTy).Contents (Elt Ideal)) :
    (⟨S64x64, .f32⟩ : BufTy).Contents (Elt Ideal) :=
  extractStridedSlice S64x64 ![64, 0] w h

/-- A 64-vector as a 1 × 64 row. -/
def asRow (h : S64.ShapeCasts S1x64) (b : (⟨S64, .f32⟩ : BufTy).Contents (Elt Ideal)) : (⟨S1x64, .f32⟩ : BufTy).Contents (Elt Ideal) :=
  shapeCast S1x64 b h

/-- The mean of the edge rows `h` over the edges of each column index: the rows scatter-added into zeros, divided by
    the number of such edges (ones scatter-added into zeros) or by one where there is none. -/
def meanByCol (col : (⟨S800000, .i32⟩ : BufTy).Contents (Elt Ideal)) (h : (⟨S800000x64, .f32⟩ : BufTy).Contents (Elt Ideal)) :
    (⟨S50000x64, .f32⟩ : BufTy).Contents (Elt Ideal) :=
  Host.divf (F := Ideal) (φ := .f32)
    (Host.scatterAdd (F := Ideal) (φ := .f32) scatter_S50000x64_S800000x1_S800000x64_1_0_0_1 (val_main_v21 (F := Ideal))
      (broadcastInDim S800000x1 ![0] bcast_S800000_S800000x1_0 col) h)
    (broadcastInDim S50000x64 ![0, 1] bcast_S50000x1_S50000x64_0_1
      (broadcastInDim S50000x1 ![0] bcast_S50000_S50000x1_0
        (maximumf (F := Ideal) (φ := .f32)
          (Host.scatterAdd (F := Ideal) (φ := .f32) scatter_S50000_S800000x1_S800000_n_0_0_1 (val_main_v25 (F := Ideal))
            (broadcastInDim S800000x1 ![0] bcast_S800000_S800000x1_0 col) (val_main_v24 (F := Ideal)))
          (val_main_v28 (F := Ideal)))))

/-- The reference's scatter-mean stage is `meanByCol` of its column indices and of its edge stage. -/
theorem mean_stage (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v32 (F := Ideal) x0 x1 x2 x5 x6 x7 x8 = meanByCol (val_main_v3 (F := Ideal) x1) (val_main_v20 (F := Ideal) x0 x1 x2 x5 x6 x7 x8) := rfl

variable (hT : S128x64.Slices ![0, 0] S64x64) (hB : S128x64.Slices ![64, 0] S64x64) (hR : S64.ShapeCasts S1x64)

/-- The edge rows: the first perceptron on `(x[row e], edge_attr e)`. -/
def edgeOut (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) : (⟨S800000x64, .f32⟩ : BufTy).Contents (Elt Ideal) :=
  RowMlp.rows (val_main_v10 (F := Ideal) x0 x1) x2 (halfTop hT x5) (halfBot hB x5) (asRow hR x6) zeroWord x7 (asRow hR x8)

/-- The result: the second perceptron on `(x n, mean n)`. -/
def closedForm (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) : (⟨S50000x64, .f32⟩ : BufTy).Contents (Elt Ideal) :=
  RowMlp.rows x0 (meanByCol (val_main_v3 (F := Ideal) x1) (edgeOut hT hB hR x0 x1 x2 x5 x6 x7 x8)) (halfTop hT x9) (halfBot hB x9)
    (asRow hR x10) zeroWord x11 (asRow hR x12)

end Cert.Spec

end
-- ==== Proof.RefValue.lean ====
/-
  The reference's result is the closed form.

  Each of the reference's two perceptron stages joins two R × 64 arrays into an R × 128 array, contracts it with the
  whole 128 × 64 weight, adds the bias, takes the maximum with zero, contracts with the 64 × 64 second weight and
  adds the second bias. Read at an index, the 128-term contraction splits at 64 (`RowMlp.sum_halves`): the first 64
  terms read the left piece of the joined row against the weight's upper half, the last 64 the right piece against
  its lower half. So each stage is the perceptron on every row (`RowMlp.rows`) with the weight's two halves, and with
  the scatter-mean between the stages carried as one function the reference's result is `Spec.closedForm`.
-/
import proofs.«172014_j24773371363899_2_alg».proof.Proof.Gen.ReferenceIdeal.Read
import proofs.«172014_j24773371363899_2_alg».proof.Proof.Spec
import Idealize.ShloMosaic.Lib.ValueLayout

set_option maxRecDepth 16384

noncomputable section

namespace Cert.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (hT : S128x64.Slices ![0, 0] S64x64) (hB : S128x64.Slices ![64, 0] S64x64) (hR : S64.ShapeCasts S1x64)

/-- The perceptron on every row, at entry `(p, q)`: output `q` of row `p`. -/
theorem rows_ix2 {R : Nat} (A B : (⟨2, ![R, 64]⟩ : Shape).Idx → EReal) (Wt Wb : (⟨2, ![64, 64]⟩ : Shape).Idx → EReal)
    (B1 : (⟨2, ![1, 64]⟩ : Shape).Idx → EReal) (z : EReal) (W2 : (⟨2, ![64, 64]⟩ : Shape).Idx → EReal)
    (B2 : (⟨2, ![1, 64]⟩ : Shape).Idx → EReal) (p : Fin R) (q : Fin 64) :
    RowMlp.rows A B Wt Wb B1 z W2 B2 (ix2 p q)
      = RowMlp.out (fun j => A (ix2 p j)) (fun j => B (ix2 p j)) (fun j k => Wt (ix2 j k)) (fun j k => Wb (ix2 j k))
          (fun k => B1 (ix2 (0 : Fin 1) k)) z (fun k q => W2 (ix2 k q)) (fun q => B2 (ix2 (0 : Fin 1) q)) q := rfl

/-! ## The edge stage -/

/-- A hidden unit of the reference's edge stage: the contraction of the joined row with the whole first weight,
    split at 64, is the two 64-term contractions with the weight's halves. -/
theorem edge_hidden (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (p : Fin 800000) (k : Fin 64) :
    val_main_v16 (F := Ideal) x0 x1 x2 x5 x6 (ix2 p k)
      = RowMlp.hidden (fun j => (val_main_v10 (F := Ideal) x0 x1) (ix2 p j)) (fun j => (x2) (ix2 p j)) (fun j k => Spec.halfTop hT x5 (ix2 j k))
          (fun j k => Spec.halfBot hB x5 (ix2 j k)) (fun k => Spec.asRow hR x6 (ix2 (0 : Fin 1) k)) Spec.zeroWord k := by
  unfold RowMlp.hidden
  rw [val_main_v16_apply, val_main_v15_apply, val_main_v12_apply, val_main_v14_apply, val_main_v13_apply,
    val_main_call0_v0_apply, val_main_call0_cst_apply, RowMlp.sum_halves]
  show max (((∑ j : Fin 64, _) + (∑ j : Fin 64, _)) + _) _ = max ((_ + _) + _) _
  refine congrArg (max · _) (congrArg₂ (· + ·) (congrArg₂ (· + ·) (Finset.sum_congr rfl fun j _ => ?_) (Finset.sum_congr rfl fun j _ => ?_)) ?_)
  · -- the first 64 terms: the left piece of the joined row against the upper half of the weight
    refine congrArg₂ (· * ·) ?_ ?_
    · unfold val_main_v11
      exact concatenate_pair_apply_left 1 _ _ concatenates_S800000x64_S800000x64_S800000x128_d1 _ rfl (ix2 p j) (fun b => by
        match b with
        | ⟨0, _⟩ => rfl
        | ⟨1, _⟩ => rfl)
    · unfold Spec.halfTop
      exact (congrArg x5 (funext fun a => Fin.ext (by
        match a with
        | ⟨0, _⟩ => show j.val = 0 + j.val; omega
        | ⟨1, _⟩ => rfl))).trans (slice2_axis0_eq 0 x5 hT j k).symm
  · -- the last 64 terms: the right piece against the lower half
    refine congrArg₂ (· * ·) ?_ ?_
    · unfold val_main_v11
      exact concatenate_pair_apply_right 1 _ _ concatenates_S800000x64_S800000x64_S800000x128_d1 _ rfl rfl (ix2 p j) (fun b hb => by
        match b with
        | ⟨0, _⟩ => rfl
        | ⟨1, _⟩ => exact absurd rfl hb) (by show j.val + 64 = 64 + j.val; omega)
    · unfold Spec.halfBot
      exact (congrArg x5 (funext fun a => Fin.ext (by
        match a with
        | ⟨0, _⟩ => rfl
        | ⟨1, _⟩ => rfl))).trans (slice2_axis0_eq 64 x5 hB j k).symm
  · -- the bias: entry `k` of the 64-vector, either way
    unfold Spec.asRow
    exact (congrArg x6 (funext fun a => Fin.ext (by
      match a with
      | ⟨0, _⟩ => rfl))).trans (shapeCast_a_1a_apply x6 hR (0 : Fin 1) k).symm

/-- The reference's edge stage is the perceptron on every row. -/
theorem edge_stage (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v20 (F := Ideal) x0 x1 x2 x5 x6 x7 x8
      = RowMlp.rows (val_main_v10 (F := Ideal) x0 x1) (x2) (Spec.halfTop hT x5) (Spec.halfBot hB x5) (Spec.asRow hR x6) Spec.zeroWord x7 (Spec.asRow hR x8) := by
  funext i
  obtain ⟨p, q, rfl⟩ : ∃ (p : Fin 800000) (q : Fin 64), i = ix2 p q := ⟨i 0, i 1, eq_ix2 i⟩
  rw [rows_ix2]
  unfold RowMlp.out
  rw [val_main_v20_apply, val_main_v17_apply, val_main_v19_apply, val_main_v18_apply]
  show (∑ k : Fin 64, _) + _ = (∑ k : Fin 64, _) + _
  refine congrArg₂ (· + ·) (Finset.sum_congr rfl fun k _ => ?_) ?_
  · refine congrArg₂ (· * ·) ?_ ?_
    · have el : lidx_main_v17 (ix2 p q) k = ix2 p k := funext fun a => Fin.ext (by
        match a with
        | ⟨0, _⟩ => rfl
        | ⟨1, _⟩ => rfl)
      rw [el]
      exact edge_hidden hT hB hR x0 x1 x2 x5 x6 p k
    · exact congrArg x7 (funext fun a => Fin.ext (by
        match a with
        | ⟨0, _⟩ => rfl
        | ⟨1, _⟩ => rfl))
  · unfold Spec.asRow
    exact (congrArg x8 (funext fun a => Fin.ext (by
      match a with
      | ⟨0, _⟩ => rfl))).trans (shapeCast_a_1a_apply x8 hR (0 : Fin 1) q).symm

/-! ## The node stage -/

/-- A hidden unit of the reference's node stage: the contraction of the joined row with the whole first weight,
    split at 64, is the two 64-term contractions with the weight's halves. -/
theorem node_hidden (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (p : Fin 50000) (k : Fin 64) :
    val_main_v38 (F := Ideal) x0 x1 x2 x5 x6 x7 x8 x9 x10 (ix2 p k)
      = RowMlp.hidden (fun j => (x0) (ix2 p j)) (fun j => (val_main_v32 (F := Ideal) x0 x1 x2 x5 x6 x7 x8) (ix2 p j)) (fun j k => Spec.halfTop hT x9 (ix2 j k))
          (fun j k => Spec.halfBot hB x9 (ix2 j k)) (fun k => Spec.asRow hR x10 (ix2 (0 : Fin 1) k)) Spec.zeroWord k := by
  unfold RowMlp.hidden
  rw [val_main_v38_apply, val_main_v37_apply, val_main_v34_apply, val_main_v36_apply, val_main_v35_apply,
    val_main_call1_v0_apply, val_main_call1_cst_apply, RowMlp.sum_halves]
  show max (((∑ j : Fin 64, _) + (∑ j : Fin 64, _)) + _) _ = max ((_ + _) + _) _
  refine congrArg (max · _) (congrArg₂ (· + ·) (congrArg₂ (· + ·) (Finset.sum_congr rfl fun j _ => ?_) (Finset.sum_congr rfl fun j _ => ?_)) ?_)
  · -- the first 64 terms: the left piece of the joined row against the upper half of the weight
    refine congrArg₂ (· * ·) ?_ ?_
    · unfold val_main_v33
      exact concatenate_pair_apply_left 1 _ _ concatenates_S50000x64_S50000x64_S50000x128_d1 _ rfl (ix2 p j) (fun b => by
        match b with
        | ⟨0, _⟩ => rfl
        | ⟨1, _⟩ => rfl)
    · unfold Spec.halfTop
      exact (congrArg x9 (funext fun a => Fin.ext (by
        match a with
        | ⟨0, _⟩ => show j.val = 0 + j.val; omega
        | ⟨1, _⟩ => rfl))).trans (slice2_axis0_eq 0 x9 hT j k).symm
  · -- the last 64 terms: the right piece against the lower half
    refine congrArg₂ (· * ·) ?_ ?_
    · unfold val_main_v33
      exact concatenate_pair_apply_right 1 _ _ concatenates_S50000x64_S50000x64_S50000x128_d1 _ rfl rfl (ix2 p j) (fun b hb => by
        match b with
        | ⟨0, _⟩ => rfl
        | ⟨1, _⟩ => exact absurd rfl hb) (by show j.val + 64 = 64 + j.val; omega)
    · unfold Spec.halfBot
      exact (congrArg x9 (funext fun a => Fin.ext (by
        match a with
        | ⟨0, _⟩ => rfl
        | ⟨1, _⟩ => rfl))).trans (slice2_axis0_eq 64 x9 hB j k).symm
  · -- the bias: entry `k` of the 64-vector, either way
    unfold Spec.asRow
    exact (congrArg x10 (funext fun a => Fin.ext (by
      match a with
      | ⟨0, _⟩ => rfl))).trans (shapeCast_a_1a_apply x10 hR (0 : Fin 1) k).symm

/-- The reference's node stage is the perceptron on every row. -/
theorem node_stage (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v42 (F := Ideal) x0 x1 x2 x5 x6 x7 x8 x9 x10 x11 x12
      = RowMlp.rows (x0) (val_main_v32 (F := Ideal) x0 x1 x2 x5 x6 x7 x8) (Spec.halfTop hT x9) (Spec.halfBot hB x9) (Spec.asRow hR x10) Spec.zeroWord x11 (Spec.asRow hR x12) := by
  funext i
  obtain ⟨p, q, rfl⟩ : ∃ (p : Fin 50000) (q : Fin 64), i = ix2 p q := ⟨i 0, i 1, eq_ix2 i⟩
  rw [rows_ix2]
  unfold RowMlp.out
  rw [val_main_v42_apply, val_main_v39_apply, val_main_v41_apply, val_main_v40_apply]
  show (∑ k : Fin 64, _) + _ = (∑ k : Fin 64, _) + _
  refine congrArg₂ (· + ·) (Finset.sum_congr rfl fun k _ => ?_) ?_
  · refine congrArg₂ (· * ·) ?_ ?_
    · have el : lidx_main_v39 (ix2 p q) k = ix2 p k := funext fun a => Fin.ext (by
        match a with
        | ⟨0, _⟩ => rfl
        | ⟨1, _⟩ => rfl)
      rw [el]
      exact node_hidden hT hB hR x0 x1 x2 x5 x6 x7 x8 x9 x10 p k
    · exact congrArg x11 (funext fun a => Fin.ext (by
        match a with
        | ⟨0, _⟩ => rfl
        | ⟨1, _⟩ => rfl))
  · unfold Spec.asRow
    exact (congrArg x12 (funext fun a => Fin.ext (by
      match a with
      | ⟨0, _⟩ => rfl))).trans (shapeCast_a_1a_apply x12 hR (0 : Fin 1) q).symm

/-! ## The result -/

/-- The reference's result stage is the closed form of the arguments: its node stage on `(x, mean)`, the mean the
    scatter-mean of its edge stage. -/
theorem result_eq (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v42 (F := Ideal) x0 x1 x2 x5 x6 x7 x8 x9 x10 x11 x12 = Spec.closedForm hT hB hR x0 x1 x2 x5 x6 x7 x8 x9 x10 x11 x12 := by
  rw [node_stage hT hB hR, Spec.mean_stage, edge_stage hT hB hR]
  rfl

end Cert.RefValue

end
-- ==== Proof.KernelHost.lean ====
/-
  What the two regions find in their window arrays, read back to the launch contents, and the kernel program's
  result as the closed form of the arguments.

  Before the edge region the host gathers `x[row]`, cuts the first weight into its two halves and reshapes the two
  biases into rows. Between the regions it scatter-adds the edge region's output by `col`, counts, and divides; cuts
  the second perceptron's first weight and reshapes its biases. No host operation and no region writes an argument.
  With each region's output array at the perceptron on every row of what the region finds, the result array is the
  closed form.
-/
import proofs.«172014_j24773371363899_2_alg».proof.Proof.Gen.KernelIdeal.Frame
import proofs.«172014_j24773371363899_2_alg».proof.Proof.EdgeBlocks
import proofs.«172014_j24773371363899_2_alg».proof.Proof.NodeBlocks
import proofs.«172014_j24773371363899_2_alg».proof.Proof.Spec
import proofs.«172014_j24773371363899_2_alg».proof.Proof.RefValue
import Idealize.ShloMosaic.Lib.StableHlo.Run

set_option maxRecDepth 16384

noncomputable section

namespace Cert.KernelHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What the edge region finds -/

/-- The first row input: the gathered rows `x[row]`. -/
theorem in0_rows (c : Dev nD) : V1 m ρ c main_v10
    = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results
  rfl

/-- The second row input: `edge_attr` as launched. -/
theorem in0_attr (c : Dev nD) : V1 m ρ c main_arg2 = m ((c : Thread nD τ).loc main_arg2) := by
  show StableHlo.after hostOps0 (W0 m ρ c) (Proc.devRef .tc main_arg2) = _
  after_results

/-- The upper half of the first weight. -/
theorem in0_top (c : Dev nD) : V1 m ρ c main_v11 = Spec.halfTop slices_S128x64_S64x64_0_0 (m ((c : Thread nD τ).loc main_arg5)) := by
  show StableHlo.after hostOps0 (W0 m ρ c) (Proc.devRef .tc main_v11) = _
  after_results
  rfl

/-- The lower half of the first weight. -/
theorem in0_bot (c : Dev nD) : V1 m ρ c main_v12 = Spec.halfBot slices_S128x64_S64x64_64_0 (m ((c : Thread nD τ).loc main_arg5)) := by
  show StableHlo.after hostOps0 (W0 m ρ c) (Proc.devRef .tc main_v12) = _
  after_results
  rfl

/-- The first bias as a row. -/
theorem in0_b1 (c : Dev nD) : V1 m ρ c main_v13 = Spec.asRow shapeCasts_S64_S1x64 (m ((c : Thread nD τ).loc main_arg6)) := by
  show StableHlo.after hostOps0 (W0 m ρ c) (Proc.devRef .tc main_v13) = _
  after_results
  rfl

/-- The second weight as launched. -/
theorem in0_w2 (c : Dev nD) : V1 m ρ c main_arg7 = m ((c : Thread nD τ).loc main_arg7) := by
  show StableHlo.after hostOps0 (W0 m ρ c) (Proc.devRef .tc main_arg7) = _
  after_results

/-- The second bias as a row. -/
theorem in0_b2 (c : Dev nD) : V1 m ρ c main_v14 = Spec.asRow shapeCasts_S64_S1x64 (m ((c : Thread nD τ).loc main_arg8)) := by
  show StableHlo.after hostOps0 (W0 m ρ c) (Proc.devRef .tc main_v14) = _
  after_results
  rfl

/-! ## At the edge region's exit -/

/-- The edge region's output array: the first perceptron on `(x[row e], edge_attr e)`. -/
theorem exit0_edges (c : Dev nD) : W2 m ρ c (Proc.devRef .tc main_v15)
    = Spec.edgeOut slices_S128x64_S64x64_0_0 slices_S128x64_S64x64_64_0 shapeCasts_S64_S1x64 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  refine (W2_arr m ρ c 7).trans ((EdgeMlp.final (V1 m ρ) c).trans ?_)
  unfold EdgeMlp.result Spec.edgeOut
  rw [in0_rows m ρ c, in0_attr m ρ c, in0_top m ρ c, in0_bot m ρ c, in0_b1 m ρ c, in0_w2 m ρ c, in0_b2 m ρ c]

/-- The column indices `edge_index[1]`. -/
theorem exit0_col (c : Dev nD) : W2 m ρ c (Proc.devRef .tc main_v3)
    = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- Argument 0 is untouched up to the edge region's exit. -/
theorem exit0_arg0 (c : Dev nD) : W2 m ρ c (Proc.devRef .tc main_arg0) = m ((c : Thread nD τ).loc main_arg0) :=
  (W2_of_ne m ρ c main_arg0 (by decide)).trans (by
  show StableHlo.after hostOps0 (W0 m ρ c) (Proc.devRef .tc main_arg0) = _
  after_results)

/-- Argument 9 is untouched up to the edge region's exit. -/
theorem exit0_arg9 (c : Dev nD) : W2 m ρ c (Proc.devRef .tc main_arg9) = m ((c : Thread nD τ).loc main_arg9) :=
  (W2_of_ne m ρ c main_arg9 (by decide)).trans (by
  show StableHlo.after hostOps0 (W0 m ρ c) (Proc.devRef .tc main_arg9) = _
  after_results)

/-- Argument 10 is untouched up to the edge region's exit. -/
theorem exit0_arg10 (c : Dev nD) : W2 m ρ c (Proc.devRef .tc main_arg10) = m ((c : Thread nD τ).loc main_arg10) :=
  (W2_of_ne m ρ c main_arg10 (by decide)).trans (by
  show StableHlo.after hostOps0 (W0 m ρ c) (Proc.devRef .tc main_arg10) = _
  after_results)

/-- Argument 11 is untouched up to the edge region's exit. -/
theorem exit0_arg11 (c : Dev nD) : W2 m ρ c (Proc.devRef .tc main_arg11) = m ((c : Thread nD τ).loc main_arg11) :=
  (W2_of_ne m ρ c main_arg11 (by decide)).trans (by
  show StableHlo.after hostOps0 (W0 m ρ c) (Proc.devRef .tc main_arg11) = _
  after_results)

/-- Argument 12 is untouched up to the edge region's exit. -/
theorem exit0_arg12 (c : Dev nD) : W2 m ρ c (Proc.devRef .tc main_arg12) = m ((c : Thread nD τ).loc main_arg12) :=
  (W2_of_ne m ρ c main_arg12 (by decide)).trans (by
  show StableHlo.after hostOps0 (W0 m ρ c) (Proc.devRef .tc main_arg12) = _
  after_results)

/-! ## What the node region finds -/

/-- The first row input: `x` as launched. -/
theorem in1_x (c : Dev nD) : V3 m ρ c main_arg0 = m ((c : Thread nD τ).loc main_arg0) := by
  show StableHlo.after hostOps1 (W2 m ρ c) (Proc.devRef .tc main_arg0) = _
  after_results
  exact exit0_arg0 m ρ c

/-- The second row input: the mean of the edge rows by column index. -/
theorem in1_mean (c : Dev nD) : V3 m ρ c main_v27
    = Spec.meanByCol (W2 m ρ c (Proc.devRef .tc main_v3)) (W2 m ρ c (Proc.devRef .tc main_v15)) := by
  show StableHlo.after hostOps1 (W2 m ρ c) (Proc.devRef .tc main_v27) = _
  after_results
  rfl

/-- The upper half of the second perceptron's first weight. -/
theorem in1_top (c : Dev nD) : V3 m ρ c main_v28 = Spec.halfTop slices_S128x64_S64x64_0_0 (m ((c : Thread nD τ).loc main_arg9)) := by
  show StableHlo.after hostOps1 (W2 m ρ c) (Proc.devRef .tc main_v28) = _
  after_results
  rw [exit0_arg9 m ρ c]
  rfl

/-- Its lower half. -/
theorem in1_bot (c : Dev nD) : V3 m ρ c main_v29 = Spec.halfBot slices_S128x64_S64x64_64_0 (m ((c : Thread nD τ).loc main_arg9)) := by
  show StableHlo.after hostOps1 (W2 m ρ c) (Proc.devRef .tc main_v29) = _
  after_results
  rw [exit0_arg9 m ρ c]
  rfl

/-- Its first bias as a row. -/
theorem in1_b1 (c : Dev nD) : V3 m ρ c main_v30 = Spec.asRow shapeCasts_S64_S1x64 (m ((c : Thread nD τ).loc main_arg10)) := by
  show StableHlo.after hostOps1 (W2 m ρ c) (Proc.devRef .tc main_v30) = _
  after_results
  rw [exit0_arg10 m ρ c]
  rfl

/-- Its second weight as launched. -/
theorem in1_w2 (c : Dev nD) : V3 m ρ c main_arg11 = m ((c : Thread nD τ).loc main_arg11) := by
  show StableHlo.after hostOps1 (W2 m ρ c) (Proc.devRef .tc main_arg11) = _
  after_results
  exact exit0_arg11 m ρ c

/-- Its second bias as a row. -/
theorem in1_b2 (c : Dev nD) : V3 m ρ c main_v31 = Spec.asRow shapeCasts_S64_S1x64 (m ((c : Thread nD τ).loc main_arg12)) := by
  show StableHlo.after hostOps1 (W2 m ρ c) (Proc.devRef .tc main_v31) = _
  after_results
  rw [exit0_arg12 m ρ c]
  rfl

/-! ## The result -/

/-- The kernel program's result as a function of its launch memory: the closed form of its arguments. -/
def value (c : Dev nD) : Buf (Elt Ideal) ((c : Thread nD τ).loc main_v32) :=
  Spec.closedForm slices_S128x64_S64x64_0_0 slices_S128x64_S64x64_64_0 shapeCasts_S64_S1x64
    (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The node region's output array after the run is `value`. -/
theorem result_eq (c : Dev nD) : (dat1 (V3 m ρ) c).arrAt 7 cfg1.N = value m c := by
  refine (NodeMlp.final (V3 m ρ) c).trans ?_
  unfold NodeMlp.result value Spec.closedForm
  rw [in1_x m ρ c, in1_mean m ρ c, exit0_col m ρ c, exit0_edges m ρ c, in1_top m ρ c, in1_bot m ρ c, in1_b1 m ρ c,
    in1_w2 m ρ c, in1_b2 m ρ c]

/-- The reference's result stage, at arguments equal to the kernel's launch contents, is `value`. -/
theorem ref_value (c : Dev nD)
    (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e5 : x5 = m ((c : Thread nD τ).loc main_arg5)) (e6 : x6 = m ((c : Thread nD τ).loc main_arg6)) (e7 : x7 = m ((c : Thread nD τ).loc main_arg7)) (e8 : x8 = m ((c : Thread nD τ).loc main_arg8)) (e9 : x9 = m ((c : Thread nD τ).loc main_arg9)) (e10 : x10 = m ((c : Thread nD τ).loc main_arg10)) (e11 : x11 = m ((c : Thread nD τ).loc main_arg11)) (e12 : x12 = m ((c : Thread nD τ).loc main_arg12)) :
    Cert.ReferenceIdeal.Read.val_main_v42 (F := Ideal) x0 x1 x2 x5 x6 x7 x8 x9 x10 x11 x12 = value m c := by
  subst e0 e1 e2 e5 e6 e7 e8 e9 e10 e11 e12
  exact Cert.RefValue.result_eq slices_S128x64_S64x64_0_0 slices_S128x64_S64x64_64_0 shapeCasts_S64_S1x64 _ _ _ _ _ _ _ _ _ _ _

end Cert.KernelHost

end
-- ==== Proof.lean ====
/-
  The certificate of the message-passing kernel against its reference.

  Both programs compute, on the extended reals, the same function of their arguments: a two-layer perceptron on every
  edge's row `(x[row e], edge_attr e)`, the mean of its outputs over the edges of each destination node, and a second
  two-layer perceptron on every node's row `(x n, mean n)`. The kernel program runs each perceptron as a gridded
  kernel over row blocks, with the first weight cut into its upper and lower 64 rows and the two 64-term contractions
  added; the reference joins the row's two halves and contracts once over 128 terms. The two agree by regrouping a
  finite sum (`RowMlp.sum_halves`), which needs no finiteness, so the precondition is never opened. The gather and
  the scatter-mean are the same host operations on both sides and are carried as opaque functions.

  The frames of the two kernel programs are the generated ones; the reference's frame is its generated run with the
  result dropped; the idealization rewrote nothing, so `preserves` is trivial.
-/
import proofs.«172014_j24773371363899_2_alg».proof.Defs
import proofs.«172014_j24773371363899_2_alg».proof.Proof.Gen.Kernel
import proofs.«172014_j24773371363899_2_alg».proof.Proof.Gen.Kernel.Skeleton
import proofs.«172014_j24773371363899_2_alg».proof.Proof.Gen.Kernel.Launch
import proofs.«172014_j24773371363899_2_alg».proof.Proof.Gen.Kernel.Points
import proofs.«172014_j24773371363899_2_alg».proof.Proof.Gen.Kernel.Frame
import proofs.«172014_j24773371363899_2_alg».proof.Proof.Gen.KernelIdeal
import proofs.«172014_j24773371363899_2_alg».proof.Proof.Gen.KernelIdeal.Skeleton
import proofs.«172014_j24773371363899_2_alg».proof.Proof.Gen.KernelIdeal.Launch
import proofs.«172014_j24773371363899_2_alg».proof.Proof.Gen.KernelIdeal.Points
import proofs.«172014_j24773371363899_2_alg».proof.Proof.Gen.KernelIdeal.Frame
import proofs.«172014_j24773371363899_2_alg».proof.Proof.Gen.ReferenceIdeal
import proofs.«172014_j24773371363899_2_alg».proof.Proof.Gen.ReferenceIdeal.Run
import proofs.«172014_j24773371363899_2_alg».proof.Proof.Gen.ReferenceIdeal.Read
import proofs.«172014_j24773371363899_2_alg».proof.Proof.Gen.Pre_finite_inputs
import proofs.«172014_j24773371363899_2_alg».proof.Proof.KernelRun
import proofs.«172014_j24773371363899_2_alg».proof.Proof.KernelHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result at the closed form of the arguments. -/
theorem algebraic : Cert.algebraic_KernelIdeal_ReferenceIdeal := by
  intro m ρ m' ρ' _ hagree
  refine ⟨fun c => Cert.KernelHost.value m c, ?_, ?_⟩
  · exact (θ_run Cert.KernelIdeal.defs _ _).mono
      (fun r h c => ⟨(h c).1.trans (Cert.KernelHost.result_eq m ρ c), (h c).2⟩) (Cert.KernelRun.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    exact ((h c).1.trans (Cert.ReferenceIdeal.Read.val_main_v42_eq _ _ _ _ _ _ _ _ _ _ _)).trans
      (Cert.KernelHost.ref_value m c _ _ _ _ _ _ _ _ _ _ _ a0 a1 a2 a5 a6 a7 a8 a9 a10 a11 a12)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
